-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v2_1)) (v3 : (c : Dev Cert.KernelIdeal.nD) → Buf (Elt Ideal) ((c.tc : Thread Cert.KernelIdeal.nD Cert.KernelIdeal.τ).loc Cert.KernelIdeal.main_v2_2)) (v4 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_v2_2) = v3 c
          ∧ r.2.mem ((c.tc : Thread Cert.KernelIdeal.nD Cert.KernelIdeal.τ).loc Cert.KernelIdeal.main_v2_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_v18) = v3 c
          ∧ r.2.mem ((c.tc : Thread Cert.ReferenceIdeal.nD Cert.ReferenceIdeal.τ).loc Cert.ReferenceIdeal.main_v31) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_arg8 : FVec F S2048x2048 .f32) (main_arg9 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  main_v48

def fn_part1 {F : FTy → Type} [FloatOps F] (main_arg4 : FVec F S4096x2048 .f32) (main_arg5 : FVec F S4096x2048 .f32) (main_arg6 : FVec F S2048x2048 .f32) (main_arg7 : FVec F S2048 .f32) (main_arg8 : FVec F S2048x2048 .f32) (main_arg9 : FVec F S2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S4096x2048 .f32 := Host.absf main_arg5
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x2048 .f32) (main_arg1 : FVec F S4096x2048 .f32) (main_arg2 : FVec F S4096x2048 .f32) (main_arg3 : FVec F S4096x2048 .f32) (main_arg4 : FVec F S4096x2048 .f32) (main_arg5 : FVec F S4096x2048 .f32) (main_arg6 : FVec F S2048x2048 .f32) (main_arg7 : FVec F S2048 .f32) (main_arg8 : FVec F S2048x2048 .f32) (main_arg9 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S32x2048 : Shape := ⟨2, ![32, 2048]⟩

abbrev nBuf : Space → Nat
  | .hbm => 16
  | .vmem => 23
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048, .f32⟩
  | .hbm, ⟨11, _⟩ => ⟨S1x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .local _ .vmem, ⟨0, _⟩ => ⟨S32x2048, .f32⟩
  | .local _ .vmem, ⟨1, _⟩ => ⟨S32x2048, .f32⟩
  | .local _ .vmem, ⟨2, _⟩ => ⟨S32x2048, .f32⟩
  | .local _ .vmem, ⟨3, _⟩ => ⟨S32x2048, .f32⟩
  | .local _ .vmem, ⟨4, _⟩ => ⟨S32x2048, .f32⟩
  | .local _ .vmem, ⟨5, _⟩ => ⟨S32x2048, .f32⟩
  | .local _ .vmem, ⟨6, _⟩ => ⟨S32x2048, .f32⟩
  | .local _ .vmem, ⟨7, _⟩ => ⟨S32x2048, .f32⟩
  | .local _ .vmem, ⟨8, _⟩ => ⟨S32x2048, .f32⟩
  | .local _ .vmem, ⟨9, _⟩ => ⟨S32x2048, .f32⟩
  | .local _ .vmem, ⟨10, _⟩ => ⟨S32x2048, .f32⟩
  | .local _ .vmem, ⟨11, _⟩ => ⟨S32x2048, .f32⟩
  | .local _ .vmem, ⟨12, _⟩ => ⟨S2048x2048, .f32⟩
  | .local _ .vmem, ⟨13, _⟩ => ⟨S2048x2048, .f32⟩
  | .local _ .vmem, ⟨14, _⟩ => ⟨S1x2048, .f32⟩
  | .local _ .vmem, ⟨15, _⟩ => ⟨S32x2048, .f32⟩
  | .local _ .vmem, ⟨16, _⟩ => ⟨S32x2048, .f32⟩
  | .local _ .vmem, ⟨17, _⟩ => ⟨S32x2048, .f32⟩
  | .local _ .vmem, ⟨18, _⟩ => ⟨S32x2048, .f32⟩
  | .local _ .vmem, ⟨19, _⟩ => ⟨S32x2048, .f32⟩
  | .local _ .vmem, ⟨20, _⟩ => ⟨S32x2048, .f32⟩
  | .local _ .vmem, ⟨21, _⟩ => ⟨S32x2048, .f32⟩
  | .local _ .vmem, ⟨22, _⟩ => ⟨S32x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S32x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S2048_S1x2048 : S2048.ShapeCasts S1x2048
  inb_S32x2048_S32x2048_0_0 : ∀ a, (![0, 0] : Fin 2 → Nat) a + S32x2048.size a ≤ S32x2048.size a
  h_S32x2048 : 0 < S32x2048.numel
  inb_S2048x2048_S2048x2048_0_0 : ∀ a, (![0, 0] : Fin 2 → Nat) a + S2048x2048.size a ≤ S2048x2048.size a
  h_S2048x2048 : 0 < S2048x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S32x2048 : S1x2048.Broadcasts S32x2048
  natLt_1_32 : 1 < 32
  dot_S32x2048_S2048x2048_S32x2048_1_0_0_1_n_n_wf : DotDims.WF S32x2048 S2048x2048 S32x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S4096x2048.size a
  hwx0_0 : ∀ i : grid0.Coords, EltTy.bits .f32 = 32 ∨ (Rect.block (s := S4096x2048) S32x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x2048.size a ≤ S4096x2048.size a
  hwx0_1 : ∀ i : grid0.Coords, EltTy.bits .f32 = 32 ∨ (Rect.block (s := S4096x2048) S32x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x2048.size a ≤ S4096x2048.size a
  hwx0_2 : ∀ i : grid0.Coords, EltTy.bits .f32 = 32 ∨ (Rect.block (s := S4096x2048) S32x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x2048.size a ≤ S4096x2048.size a
  hwx0_3 : ∀ i : grid0.Coords, EltTy.bits .f32 = 32 ∨ (Rect.block (s := S4096x2048) S32x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x2048.size a ≤ S4096x2048.size a
  hwx0_4 : ∀ i : grid0.Coords, EltTy.bits .f32 = 32 ∨ (Rect.block (s := S4096x2048) S32x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x2048.size a ≤ S4096x2048.size a
  hwx0_5 : ∀ i : grid0.Coords, EltTy.bits .f32 = 32 ∨ (Rect.block (s := S4096x2048) S32x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x2048.size a ≤ S2048x2048.size a
  hwx0_6 : ∀ i : grid0.Coords, EltTy.bits .f32 = 32 ∨ (Rect.block (s := S2048x2048) S2048x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x2048.size a ≤ S2048x2048.size a
  hwx0_7 : ∀ i : grid0.Coords, EltTy.bits .f32 = 32 ∨ (Rect.block (s := S2048x2048) S2048x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x2048.size a ≤ S4096x2048.size a
  hwx0_9 : ∀ i : grid0.Coords, EltTy.bits .f32 = 32 ∨ (Rect.block (s := S4096x2048) S32x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S32x2048.size a ≤ S4096x2048.size a
  hwx0_10 : ∀ i : grid0.Coords, EltTy.bits .f32 = 32 ∨ (Rect.block (s := S4096x2048) S32x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S32x2048.size a ≤ S4096x2048.size a
  hwx0_11 : ∀ i : grid0.Coords, EltTy.bits .f32 = 32 ∨ (Rect.block (s := S4096x2048) S32x2048.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S32x2048.size a ≤ S4096x2048.size a
  hwx0_12 : ∀ i : grid0.Coords, EltTy.bits .f32 = 32 ∨ (Rect.block (s := S4096x2048) S32x2048.size (cc0_transform_12 i) (hinb0_12 i)).WholeWords (EltTy.packing .f32)

variable [Facts₀]

def dot_S32x2048_S2048x2048_S32x2048_1_0_0_1_n_n : DotDims S32x2048 S2048x2048 S32x2048 where
  lhsContracting := [1]
  rhsContracting := [0]
  lhsNonContracting := [0]
  rhsNonContracting := [1]
  lhsBatch := []
  rhsBatch := []
  wf := dot_S32x2048_S2048x2048_S32x2048_1_0_0_1_n_n_wf

abbrev win0_0 : Pipeline.Window sig grid0 :=
  Pipeline.Window.ofSpec (Memref.whole main_arg0) S32x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S2048x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2_0) S32x2048.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_1) S32x2048.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v2_2) S32x2048.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v2_3) S32x2048.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .i1⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.Neuron.lean ====
/-
  One step of a recurrent layer of leaky integrate-and-fire neurons with an adaptive threshold, entry by entry, on
  the extended reals.

  For neuron c of batch row r, with x the input row, s the previous spikes, I, v, θ the previous current, potential and
  threshold, and m the dropout mask:

    current    I' = (1/2 · I + Σₖ x(r,k)·Wpsp(k,c) + Σₖ s(r,k)·Wrec(k,c) + b(c)) · m
    potential  v' = 3/4 · v · (1 − s) + I'
    spike      z  = 1 if v' > θ, else 0
    threshold  θ' = (θ + 0.05) · z + max(θ · 0.9, 1) · (1 − z)

  The five constants are kept as the float words they are written with: both programs spell the same words, so their
  values are never needed.  The only law between the two programs is that the four-term sum inside the current may be
  grouped either way: addition on the extended reals is commutative and associative, infinities included, so no entry
  needs to be finite.  The spike is a one-bit answer turned into a number; widening the bit to 32 bits and reading it
  signed gives the same 0 or 1 as reading the bit unsigned.

  The second half states the four results as functions of whole arrays, and that the same functions applied to a
  block of 32 consecutive rows give the block of the result: an entry depends only on its own row of the
  row-shaped arrays.
-/
import Idealize.ShloMosaic.PureOps.Ideal
import Idealize.ShloMosaic.Lib.ValueIdx
import proofs.«109018_j50053548868255_2_alg».proof.Proof.LibPlainDot

noncomputable section

namespace Cert.Neuron

open Idealize.ShloMosaic Idealize.ShloMosaic.ValueIdx Cert.Lib.PlainDot
open scoped BigOperators

/-! ## One entry -/

/-- The decay of the current: the word of 1/2. -/
abbrev cdecay : EReal := Ideal.ofBits .f32 0x3F000000#32
/-- The decay of the potential: the word of 3/4. -/
abbrev vdecay : EReal := Ideal.ofBits .f32 0x3F400000#32
/-- The word of 1: the reset factor's minuend, the threshold's floor. -/
abbrev unit : EReal := Ideal.ofBits .f32 0x3F800000#32
/-- The threshold's increment on a spike: the word nearest 0.05. -/
abbrev bump : EReal := Ideal.ofBits .f32 0x3D4CCCCD#32
/-- The threshold's decay without a spike: the word nearest 0.9. -/
abbrev relax : EReal := Ideal.ofBits .f32 0x3F666666#32

/-- The new current from the old one, the two projections, the bias and the mask. -/
def current (pc psp rec b mk : EReal) : EReal := (cdecay * pc + psp + rec + b) * mk
/-- The new potential: the old one decayed, reset where the neuron fired last step, plus the new current. -/
def potential (pv s cur : EReal) : EReal := vdecay * pv * (unit - s) + cur
/-- The spike: 1 where the potential exceeds the threshold, else 0. -/
def fired (v th : EReal) : EReal := (((Ideal.cmp .ogt v th).toNat : ℝ) : EReal)
/-- The new threshold: raised on a spike, otherwise decayed but not below 1. -/
def threshold (th f : EReal) : EReal := (th + bump) * f + max (th * relax) unit * (unit - f)

/-- The two biases may be added one at a time, the second projection between them, or summed first: addition is
    commutative and associative on the extended reals. -/
theorem regroup (a p r b1 b2 : EReal) : a + p + b1 + r + b2 = a + p + r + (b1 + b2) := by
  rw [add_right_comm (a + p) b1 r, add_assoc]

/-- A bit widened to 32 bits and read as a signed integer is the bit read as a natural number. -/
theorem signed_of_widened_bit (b : BitVec 1) :
    (((b.setWidth 32).toInt : ℝ) : EReal) = ((b.toNat : ℝ) : EReal) := by
  have h : ∀ b : BitVec 1, (b.setWidth 32).toInt = (b.toNat : ℤ) := by decide
  rw [h b, Int.cast_natCast]

/-! ## Whole arrays -/

/-- The batch-shaped arrays: 4096 rows of 2048 neurons. -/
abbrev Batch : Shape := ⟨2, ![4096, 2048]⟩
/-- A block of 32 consecutive rows. -/
abbrev Rows : Shape := ⟨2, ![32, 2048]⟩
/-- A weight matrix. -/
abbrev Weights : Shape := ⟨2, ![2048, 2048]⟩
/-- A bias vector, one entry per neuron. -/
abbrev PerNeuron : Shape := ⟨1, ![2048]⟩

/-- The neuron an entry belongs to, as an index into a per-neuron vector. -/
abbrev neuronOf {R : Nat} (i : (⟨2, ![R, 2048]⟩ : Shape).Idx) : PerNeuron.Idx := fun a => match a with
  | ⟨0, _⟩ => ⟨(i 1).val, (i 1).isLt⟩

/-- Two per-neuron vectors summed, neuron by neuron: the two biases as one. -/
def biasSum (b1 b2 : PerNeuron.Idx → EReal) : PerNeuron.Idx → EReal := fun q => b1 q + b2 q

/-- The new currents. -/
def currents {R : Nat} (x s pc mk : (⟨2, ![R, 2048]⟩ : Shape).Idx → EReal) (wp wr : Weights.Idx → EReal)
    (b : PerNeuron.Idx → EReal) : (⟨2, ![R, 2048]⟩ : Shape).Idx → EReal :=
  fun i => current (pc i) (mm x wp i) (mm s wr i) (b (neuronOf i)) (mk i)
/-- The new potentials, from the new currents. -/
def potentials {R : Nat} (pv s cur : (⟨2, ![R, 2048]⟩ : Shape).Idx → EReal) : (⟨2, ![R, 2048]⟩ : Shape).Idx → EReal :=
  fun i => potential (pv i) (s i) (cur i)
/-- The spikes, from the new potentials. -/
def spikes {R : Nat} (v th : (⟨2, ![R, 2048]⟩ : Shape).Idx → EReal) : (⟨2, ![R, 2048]⟩ : Shape).Idx → EReal :=
  fun i => fired (v i) (th i)
/-- The new thresholds, from the spikes. -/
def thresholds {R : Nat} (th f : (⟨2, ![R, 2048]⟩ : Shape).Idx → EReal) : (⟨2, ![R, 2048]⟩ : Shape).Idx → EReal :=
  fun i => threshold (th i) (f i)

/-! ## A block of rows -/

/-- Entry y of the t-th block of 32 rows is entry (32·t + y₀, y₁) of the array. -/
def rowsOf (t : Nat) (ht : t < 128) (y : Rows.Idx) : Batch.Idx :=
  ix2 ⟨32 * t + (y 0).val, by have := idx2_lt0 y; omega⟩ ⟨(y 1).val, idx2_lt1 y⟩

/-- The t-th block of 32 rows of a batch-shaped array. -/
def block (t : Nat) (ht : t < 128) (X : Batch.Idx → EReal) : Rows.Idx → EReal := fun y => X (rowsOf t ht y)

/-- A row of a block's product with a weight matrix is that row of the whole array's product. -/
theorem mm_block (t : Nat) (ht : t < 128) (X : Batch.Idx → EReal) (W : Weights.Idx → EReal) (j : Rows.Idx) :
    mm (block t ht X) W j = mm X W (rowsOf t ht j) := by
  unfold mm block
  refine Finset.sum_congr rfl fun k _ => ?_
  have el : rowsOf t ht (rowIdx j k) = rowIdx (rowsOf t ht j) k :=
    funext fun a => by match a with | ⟨0, _⟩ => rfl | ⟨1, _⟩ => rfl
  have er : colIdx j k = colIdx (rowsOf t ht j) k :=
    funext fun a => by match a with | ⟨0, _⟩ => rfl | ⟨1, _⟩ => rfl
  rw [el, er]

/-- The currents of a block of rows are the block of the currents. -/
theorem currents_block (t : Nat) (ht : t < 128) (X S PC MK : Batch.Idx → EReal) (WP WR : Weights.Idx → EReal)
    (b : PerNeuron.Idx → EReal) (j : Rows.Idx) :
    currents (block t ht X) (block t ht S) (block t ht PC) (block t ht MK) WP WR b j
      = currents X S PC MK WP WR b (rowsOf t ht j) := by
  unfold currents
  rw [mm_block, mm_block]
  rfl

end Cert.Neuron

end
-- ==== Proof.KernelPoint.lean ====
/-
  What the kernel's body computes, read entry by entry.

  The body loads a block of rows of each batch-shaped array, both weight matrices and the summed bias row, and
  stores four blocks.  Read at an entry, the four stored values are the four functions of the layer's step applied
  to the loaded blocks: the two matrix products into a zero accumulator are plain sums over the contracted axis,
  the bias row spread over the 32 rows reads the neuron's own entry, and every other operation acts entry by entry.
  The spike is stored as the comparison's bit widened to 32 bits and read as a signed integer, which is the bit's
  value 0 or 1.
-/
import proofs.«109018_j50053548868255_2_alg».proof.Proof.Gen.KernelIdeal.Skeleton
import proofs.«109018_j50053548868255_2_alg».proof.Proof.Neuron
import Idealize.ShloMosaic.Lib.Pipeline.Value
import Idealize.ShloMosaic.Lib.ValueIdx

noncomputable section

namespace Cert.KernelIdeal.Point

open Cert.KernelIdeal Cert.KernelIdeal.Gen Idealize.ShloMosaic Idealize.ShloMosaic.ValueIdx Cert.Neuron Cert.Lib.PlainDot

/-- The one row of the bias block as a vector with one entry per neuron. -/
abbrev biasRow (b : FVec Ideal S1x2048 .f32) : PerNeuron.Idx → EReal :=
  fun q => b (ix2 (n0 := 1) (n1 := 2048) 0 ⟨(q 0).val, (q 0).isLt⟩)

/-- The bias row spread over the block's rows reads, at an entry, the entry's neuron. -/
theorem bias_apply (b : FVec Ideal S1x2048 .f32) (h : S1x2048.ShapeCasts S1x2048) (h' : S1x2048.Broadcasts S32x2048)
    (j : S32x2048.Idx) :
    broadcastTo S32x2048 (shapeCast S1x2048 b h) h' j = biasRow b (neuronOf j) := by
  rw [shapeCast_self]
  refine broadcastTo_apply b h' j _ (fun a => ?_)
  match a with
  | ⟨0, _⟩ => show (0 : Nat) = if (1 : Nat) = 1 then 0 else _; rw [if_pos rfl]
  | ⟨1, _⟩ => show (j 1).val = if (2048 : Nat) = 1 then 0 else (j 1).val; rw [if_neg (by decide)]

/-- The stored current: the layer's current of the loaded blocks. -/
theorem current_apply (x0 x1 : FVec Ideal S32x2048 .f32) (w0 w1 : FVec Ideal S2048x2048 .f32)
    (pc mk : FVec Ideal S32x2048 .f32) (b : FVec Ideal S1x2048 .f32) (j : S32x2048.Idx) :
    k0_pay2 (F := Ideal) x0 x1 w0 w1 pc mk b j = currents x0 x1 pc mk w0 w1 (biasRow b) j := by
  have e0 : matmul dot_S32x2048_S2048x2048_S32x2048_1_0_0_1_n_n (some .fp32) x0 w0
      (constant (F := Ideal) S32x2048 .f32 0x00000000#32) j = mm x0 w0 j :=
    matmul_zero_apply (R := 32) (K := 2048) (C := 2048) dot_S32x2048_S2048x2048_S32x2048_1_0_0_1_n_n rfl
      (some .fp32) x0 w0 j
  have e1 : matmul dot_S32x2048_S2048x2048_S32x2048_1_0_0_1_n_n (some .fp32) x1 w1
      (constant (F := Ideal) S32x2048 .f32 0x00000000#32) j = mm x1 w1 j :=
    matmul_zero_apply (R := 32) (K := 2048) (C := 2048) dot_S32x2048_S2048x2048_S32x2048_1_0_0_1_n_n rfl
      (some .fp32) x1 w1 j
  unfold k0_pay2 currents current
  simp only [mulf, addf, broadcast]
  rw [e0, e1, bias_apply]
  rfl

/-- The stored potential, over the stored current. -/
theorem potential_apply (x0 x1 : FVec Ideal S32x2048 .f32) (w0 w1 : FVec Ideal S2048x2048 .f32)
    (pc pv mk : FVec Ideal S32x2048 .f32) (b : FVec Ideal S1x2048 .f32) (j : S32x2048.Idx) :
    k0_pay3 (F := Ideal) x0 x1 w0 w1 pc pv mk b j = potentials pv x1 (k0_pay2 (F := Ideal) x0 x1 w0 w1 pc mk b) j := rfl

/-- The stored spike, over the stored potential. -/
theorem spike_apply (x0 x1 : FVec Ideal S32x2048 .f32) (w0 w1 : FVec Ideal S2048x2048 .f32)
    (pc pv th mk : FVec Ideal S32x2048 .f32) (b : FVec Ideal S1x2048 .f32) (j : S32x2048.Idx) :
    k0_pay4 (F := Ideal) x0 x1 w0 w1 pc pv th mk b j = spikes (k0_pay3 (F := Ideal) x0 x1 w0 w1 pc pv mk b) th j :=
  signed_of_widened_bit _

/-- The stored threshold, over the stored spike. -/
theorem threshold_apply (x0 x1 : FVec Ideal S32x2048 .f32) (w0 w1 : FVec Ideal S2048x2048 .f32)
    (pc pv th mk : FVec Ideal S32x2048 .f32) (b : FVec Ideal S1x2048 .f32) (j : S32x2048.Idx) :
    k0_pay1 (F := Ideal) (k0_pay4 x0 x1 w0 w1 pc pv th mk b) (k0_pay5 (F := Ideal) x0 x1 w0 w1 pc pv th mk b) (k0_pay6 (F := Ideal) th)
        (Scalar.ofBits .f32 0x3F800000#32) j
      = thresholds th (k0_pay4 (F := Ideal) x0 x1 w0 w1 pc pv th mk b) j := rfl

end Cert.KernelIdeal.Point

end
-- ==== Proof.KernelRows.lean ====
/-
  The body's stored values on a block of rows are the block of rows of the whole-array results.

  When the body's row-shaped operands are the t-th blocks of 32 rows of six batch-shaped arrays, the four values it
  stores are, entry by entry, the layer's current, potential, spike and threshold of the whole arrays at row
  32·t + y₀: an entry's products read only its own row of the input and of the previous spikes, and everything else
  is read at the entry itself.
-/
import proofs.«109018_j50053548868255_2_alg».proof.Proof.KernelPoint

noncomputable section

namespace Cert.KernelIdeal.Point

open Cert.KernelIdeal Cert.KernelIdeal.Gen Idealize.ShloMosaic Idealize.ShloMosaic.ValueIdx Cert.Neuron Cert.Lib.PlainDot

variable (t : Nat) (ht : t < 128) (X S PC PV TH MK : Batch.Idx → EReal) (WP WR : Weights.Idx → EReal)
  (b : FVec Ideal S1x2048 .f32) (j : S32x2048.Idx)

/-- The stored current of a block of rows. -/
theorem current_rows :
    k0_pay2 (F := Ideal) (block t ht X) (block t ht S) WP WR (block t ht PC) (block t ht MK) b j
      = currents X S PC MK WP WR (biasRow b) (rowsOf t ht j) :=
  (current_apply (block t ht X) (block t ht S) WP WR (block t ht PC) (block t ht MK) b j).trans
    (currents_block t ht X S PC MK WP WR (biasRow b) j)

/-- The stored potential of a block of rows. -/
theorem potential_rows :
    k0_pay3 (F := Ideal) (block t ht X) (block t ht S) WP WR (block t ht PC) (block t ht PV) (block t ht MK) b j
      = potentials PV S (currents X S PC MK WP WR (biasRow b)) (rowsOf t ht j) := by
  rw [potential_apply]
  unfold potentials
  rw [current_rows]
  rfl

/-- The stored spike of a block of rows. -/
theorem spike_rows :
    k0_pay4 (F := Ideal) (block t ht X) (block t ht S) WP WR (block t ht PC) (block t ht PV) (block t ht TH)
        (block t ht MK) b j
      = spikes (potentials PV S (currents X S PC MK WP WR (biasRow b))) TH (rowsOf t ht j) := by
  rw [spike_apply]
  unfold spikes
  rw [potential_rows]
  rfl

/-- The stored threshold of a block of rows. -/
theorem threshold_rows :
    k0_pay1 (F := Ideal)
        (k0_pay4 (F := Ideal) (block t ht X) (block t ht S) WP WR (block t ht PC) (block t ht PV) (block t ht TH)
          (block t ht MK) b)
        (k0_pay5 (F := Ideal) (block t ht X) (block t ht S) WP WR (block t ht PC) (block t ht PV) (block t ht TH)
          (block t ht MK) b)
        (k0_pay6 (F := Ideal) (block t ht TH)) (Scalar.ofBits .f32 0x3F800000#32) j
      = thresholds TH (spikes (potentials PV S (currents X S PC MK WP WR (biasRow b))) TH) (rowsOf t ht j) := by
  rw [threshold_apply]
  unfold thresholds
  rw [spike_rows]
  rfl

end Cert.KernelIdeal.Point

end
-- ==== Proof.KernelBlocks.lean ====
/-
  From the blocks each grid point writes back to the four result arrays, whole.

  The grid has 128 points; point t stages rows 32·t … 32·t + 31 of the six batch-shaped inputs, both weight matrices
  whole and the summed bias row whole, and writes back rows 32·t … 32·t + 31 of each result.  What point t writes
  back is therefore the t-th block of rows of the layer's step applied to the arrays as the region finds them; the
  128 blocks tile the 4096 rows, so after the run each result array holds the whole-array function.  The bias row
  the region finds is the sum of the two bias vectors, reshaped to one row.
-/
import proofs.«109018_j50053548868255_2_alg».proof.Proof.Gen.KernelIdeal.Value
import proofs.«109018_j50053548868255_2_alg».proof.Proof.KernelRows
import Idealize.ShloMosaic.Lib.Pipeline.Value
import Idealize.ShloMosaic.Lib.StableHlo.Run
import Idealize.ShloMosaic.Lib.Tactic

noncomputable section

namespace Cert.KernelIdeal.Blocks

open Cert.KernelIdeal Cert.KernelIdeal.Gen Cert.KernelIdeal.Value Cert.KernelIdeal.Point Idealize.ShloMosaic
  Idealize.ShloMosaic.TcCoe Idealize.SL.Sem Idealize.ShloMosaic.ValueIdx Cert.Neuron Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- A grid point's number is below 128. -/
theorem lt_points (t : Fin cfg0.N) : t.val < 128 := lt_of_lt_of_eq t.isLt (show cfg0.N = 128 from N_0)

/-! ## The index maps, decided over the grid

A row-shaped window's block index at point t is (t, 0); the weights' and the bias row's is (0, 0). -/

theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem index4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem index5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem index9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem index10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)
theorem index11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
theorem index12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)
theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem index7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem index8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-! ## Where a block's entry sits in its array -/

theorem emb_rows0 (t : Fin cfg0.N) (y : S32x2048.Idx) :
    ((cfg0.win 0).blk t).view.emb y = rowsOf t.val (lt_points t) y := by
  obtain ⟨e0, e1⟩ := index0 t
  funext a; apply Fin.ext
  match a with
  | ⟨0, _⟩ => show win0_0.index t (0 : Fin 2) * 32 + 1 * (y 0).val = 32 * t.val + (y 0).val; rw [e0]; omega
  | ⟨1, _⟩ => show win0_0.index t (1 : Fin 2) * 2048 + 1 * (y 1).val = (y 1).val; rw [e1]; omega
theorem emb_rows1 (t : Fin cfg0.N) (y : S32x2048.Idx) :
    ((cfg0.win 1).blk t).view.emb y = rowsOf t.val (lt_points t) y := by
  obtain ⟨e0, e1⟩ := index1 t
  funext a; apply Fin.ext
  match a with
  | ⟨0, _⟩ => show win0_1.index t (0 : Fin 2) * 32 + 1 * (y 0).val = 32 * t.val + (y 0).val; rw [e0]; omega
  | ⟨1, _⟩ => show win0_1.index t (1 : Fin 2) * 2048 + 1 * (y 1).val = (y 1).val; rw [e1]; omega
theorem emb_rows2 (t : Fin cfg0.N) (y : S32x2048.Idx) :
    ((cfg0.win 2).blk t).view.emb y = rowsOf t.val (lt_points t) y := by
  obtain ⟨e0, e1⟩ := index2 t
  funext a; apply Fin.ext
  match a with
  | ⟨0, _⟩ => show win0_2.index t (0 : Fin 2) * 32 + 1 * (y 0).val = 32 * t.val + (y 0).val; rw [e0]; omega
  | ⟨1, _⟩ => show win0_2.index t (1 : Fin 2) * 2048 + 1 * (y 1).val = (y 1).val; rw [e1]; omega
theorem emb_rows3 (t : Fin cfg0.N) (y : S32x2048.Idx) :
    ((cfg0.win 3).blk t).view.emb y = rowsOf t.val (lt_points t) y := by
  obtain ⟨e0, e1⟩ := index3 t
  funext a; apply Fin.ext
  match a with
  | ⟨0, _⟩ => show win0_3.index t (0 : Fin 2) * 32 + 1 * (y 0).val = 32 * t.val + (y 0).val; rw [e0]; omega
  | ⟨1, _⟩ => show win0_3.index t (1 : Fin 2) * 2048 + 1 * (y 1).val = (y 1).val; rw [e1]; omega
theorem emb_rows4 (t : Fin cfg0.N) (y : S32x2048.Idx) :
    ((cfg0.win 4).blk t).view.emb y = rowsOf t.val (lt_points t) y := by
  obtain ⟨e0, e1⟩ := index4 t
  funext a; apply Fin.ext
  match a with
  | ⟨0, _⟩ => show win0_4.index t (0 : Fin 2) * 32 + 1 * (y 0).val = 32 * t.val + (y 0).val; rw [e0]; omega
  | ⟨1, _⟩ => show win0_4.index t (1 : Fin 2) * 2048 + 1 * (y 1).val = (y 1).val; rw [e1]; omega
theorem emb_rows5 (t : Fin cfg0.N) (y : S32x2048.Idx) :
    ((cfg0.win 5).blk t).view.emb y = rowsOf t.val (lt_points t) y := by
  obtain ⟨e0, e1⟩ := index5 t
  funext a; apply Fin.ext
  match a with
  | ⟨0, _⟩ => show win0_5.index t (0 : Fin 2) * 32 + 1 * (y 0).val = 32 * t.val + (y 0).val; rw [e0]; omega
  | ⟨1, _⟩ => show win0_5.index t (1 : Fin 2) * 2048 + 1 * (y 1).val = (y 1).val; rw [e1]; omega
theorem emb_rows9 (t : Fin cfg0.N) (y : S32x2048.Idx) :
    ((cfg0.win 9).blk t).view.emb y = rowsOf t.val (lt_points t) y := by
  obtain ⟨e0, e1⟩ := index9 t
  funext a; apply Fin.ext
  match a with
  | ⟨0, _⟩ => show win0_9.index t (0 : Fin 2) * 32 + 1 * (y 0).val = 32 * t.val + (y 0).val; rw [e0]; omega
  | ⟨1, _⟩ => show win0_9.index t (1 : Fin 2) * 2048 + 1 * (y 1).val = (y 1).val; rw [e1]; omega
theorem emb_rows10 (t : Fin cfg0.N) (y : S32x2048.Idx) :
    ((cfg0.win 10).blk t).view.emb y = rowsOf t.val (lt_points t) y := by
  obtain ⟨e0, e1⟩ := index10 t
  funext a; apply Fin.ext
  match a with
  | ⟨0, _⟩ => show win0_10.index t (0 : Fin 2) * 32 + 1 * (y 0).val = 32 * t.val + (y 0).val; rw [e0]; omega
  | ⟨1, _⟩ => show win0_10.index t (1 : Fin 2) * 2048 + 1 * (y 1).val = (y 1).val; rw [e1]; omega
theorem emb_rows11 (t : Fin cfg0.N) (y : S32x2048.Idx) :
    ((cfg0.win 11).blk t).view.emb y = rowsOf t.val (lt_points t) y := by
  obtain ⟨e0, e1⟩ := index11 t
  funext a; apply Fin.ext
  match a with
  | ⟨0, _⟩ => show win0_11.index t (0 : Fin 2) * 32 + 1 * (y 0).val = 32 * t.val + (y 0).val; rw [e0]; omega
  | ⟨1, _⟩ => show win0_11.index t (1 : Fin 2) * 2048 + 1 * (y 1).val = (y 1).val; rw [e1]; omega
theorem emb_rows12 (t : Fin cfg0.N) (y : S32x2048.Idx) :
    ((cfg0.win 12).blk t).view.emb y = rowsOf t.val (lt_points t) y := by
  obtain ⟨e0, e1⟩ := index12 t
  funext a; apply Fin.ext
  match a with
  | ⟨0, _⟩ => show win0_12.index t (0 : Fin 2) * 32 + 1 * (y 0).val = 32 * t.val + (y 0).val; rw [e0]; omega
  | ⟨1, _⟩ => show win0_12.index t (1 : Fin 2) * 2048 + 1 * (y 1).val = (y 1).val; rw [e1]; omega
theorem emb_whole6 (t : Fin cfg0.N) (y : S2048x2048.Idx) : ((cfg0.win 6).blk t).view.emb y = y := by
  obtain ⟨e0, e1⟩ := index6 t
  funext a; apply Fin.ext
  match a with
  | ⟨0, _⟩ => show win0_6.index t (0 : Fin 2) * 2048 + 1 * (y 0).val = (y 0).val; rw [e0]; omega
  | ⟨1, _⟩ => show win0_6.index t (1 : Fin 2) * 2048 + 1 * (y 1).val = (y 1).val; rw [e1]; omega
theorem emb_whole7 (t : Fin cfg0.N) (y : S2048x2048.Idx) : ((cfg0.win 7).blk t).view.emb y = y := by
  obtain ⟨e0, e1⟩ := index7 t
  funext a; apply Fin.ext
  match a with
  | ⟨0, _⟩ => show win0_7.index t (0 : Fin 2) * 2048 + 1 * (y 0).val = (y 0).val; rw [e0]; omega
  | ⟨1, _⟩ => show win0_7.index t (1 : Fin 2) * 2048 + 1 * (y 1).val = (y 1).val; rw [e1]; omega
theorem emb_whole8 (t : Fin cfg0.N) (y : S1x2048.Idx) : ((cfg0.win 8).blk t).view.emb y = y := by
  obtain ⟨e0, e1⟩ := index8 t
  funext a; apply Fin.ext
  match a with
  | ⟨0, _⟩ => show win0_8.index t (0 : Fin 2) * 1 + 1 * (y 0).val = (y 0).val; rw [e0]; omega
  | ⟨1, _⟩ => show win0_8.index t (1 : Fin 2) * 2048 + 1 * (y 1).val = (y 1).val; rw [e1]; omega

/-! ## The staged blocks, as functions of the arrays the region finds -/

theorem iblk_rows0 (c : Dev nD) (t : Fin cfg0.N) :
    (iblk m c 0 t : FVec Ideal S32x2048 .f32) = block t.val (lt_points t) (V m c main_arg0) := by
  funext y
  show V m c main_arg0 (((cfg0.win 0).blk t).view.emb y) = V m c main_arg0 (rowsOf t.val (lt_points t) y)
  rw [emb_rows0]
theorem iblk_rows1 (c : Dev nD) (t : Fin cfg0.N) :
    (iblk m c 1 t : FVec Ideal S32x2048 .f32) = block t.val (lt_points t) (V m c main_arg1) := by
  funext y
  show V m c main_arg1 (((cfg0.win 1).blk t).view.emb y) = V m c main_arg1 (rowsOf t.val (lt_points t) y)
  rw [emb_rows1]
theorem iblk_rows2 (c : Dev nD) (t : Fin cfg0.N) :
    (iblk m c 2 t : FVec Ideal S32x2048 .f32) = block t.val (lt_points t) (V m c main_arg2) := by
  funext y
  show V m c main_arg2 (((cfg0.win 2).blk t).view.emb y) = V m c main_arg2 (rowsOf t.val (lt_points t) y)
  rw [emb_rows2]
theorem iblk_rows3 (c : Dev nD) (t : Fin cfg0.N) :
    (iblk m c 3 t : FVec Ideal S32x2048 .f32) = block t.val (lt_points t) (V m c main_arg3) := by
  funext y
  show V m c main_arg3 (((cfg0.win 3).blk t).view.emb y) = V m c main_arg3 (rowsOf t.val (lt_points t) y)
  rw [emb_rows3]
theorem iblk_rows4 (c : Dev nD) (t : Fin cfg0.N) :
    (iblk m c 4 t : FVec Ideal S32x2048 .f32) = block t.val (lt_points t) (V m c main_arg4) := by
  funext y
  show V m c main_arg4 (((cfg0.win 4).blk t).view.emb y) = V m c main_arg4 (rowsOf t.val (lt_points t) y)
  rw [emb_rows4]
theorem iblk_rows5 (c : Dev nD) (t : Fin cfg0.N) :
    (iblk m c 5 t : FVec Ideal S32x2048 .f32) = block t.val (lt_points t) (V m c main_arg5) := by
  funext y
  show V m c main_arg5 (((cfg0.win 5).blk t).view.emb y) = V m c main_arg5 (rowsOf t.val (lt_points t) y)
  rw [emb_rows5]
theorem iblk_whole6 (c : Dev nD) (t : Fin cfg0.N) : (iblk m c 6 t : FVec Ideal S2048x2048 .f32) = V m c main_arg6 := by
  funext y
  show V m c main_arg6 (((cfg0.win 6).blk t).view.emb y) = V m c main_arg6 y
  rw [emb_whole6]
theorem iblk_whole7 (c : Dev nD) (t : Fin cfg0.N) : (iblk m c 7 t : FVec Ideal S2048x2048 .f32) = V m c main_arg8 := by
  funext y
  show V m c main_arg8 (((cfg0.win 7).blk t).view.emb y) = V m c main_arg8 y
  rw [emb_whole7]
theorem iblk_whole8 (c : Dev nD) (t : Fin cfg0.N) : (iblk m c 8 t : FVec Ideal S1x2048 .f32) = V m c main_v1 := by
  funext y
  show V m c main_v1 (((cfg0.win 8).blk t).view.emb y) = V m c main_v1 y
  rw [emb_whole8]

/-! ## What each point writes back -/

/-- Point t writes back the t-th block of rows of the currents. -/
theorem flushed10_eq (c : Dev nD) (t : Fin cfg0.N) :
    (dats m 0 c).flushed 10 t = ((cfg0.win 10).blk t).view.read (Elt Ideal) (currents (R := 4096) (V m c main_arg0) (V m c main_arg1) (V m c main_arg2) (V m c main_arg5) (V m c main_arg6) (V m c main_arg8) (biasRow (V m c main_v1))) := by
  rw [flushed10]
  unfold out0_10
  rw [View.canon_unit_zero hz]
  simp only [View.ld_unit_zero (S := S32x2048) hz, View.ld_unit_zero (S := S2048x2048) hz, View.ld_unit_zero (S := S1x2048) hz]
  funext j
  show k0_pay2 (F := Ideal) (iblk m c 0 t) (iblk m c 1 t) (iblk m c 6 t) (iblk m c 7 t) (iblk m c 2 t) (iblk m c 5 t) (iblk m c 8 t) j
      = (currents (R := 4096) (V m c main_arg0) (V m c main_arg1) (V m c main_arg2) (V m c main_arg5) (V m c main_arg6) (V m c main_arg8) (biasRow (V m c main_v1))) (((cfg0.win 10).blk t).view.emb j)
  rw [emb_rows10, iblk_rows0, iblk_rows1, iblk_rows2, iblk_rows5, iblk_whole6, iblk_whole7, iblk_whole8]
  exact current_rows ..

/-- Point t writes back the t-th block of rows of the potentials. -/
theorem flushed11_eq (c : Dev nD) (t : Fin cfg0.N) :
    (dats m 0 c).flushed 11 t = ((cfg0.win 11).blk t).view.read (Elt Ideal) (potentials (R := 4096) (V m c main_arg3) (V m c main_arg1) (currents (R := 4096) (V m c main_arg0) (V m c main_arg1) (V m c main_arg2) (V m c main_arg5) (V m c main_arg6) (V m c main_arg8) (biasRow (V m c main_v1)))) := by
  rw [flushed11]
  unfold out0_11
  rw [View.canon_unit_zero hz]
  simp only [View.ld_unit_zero (S := S32x2048) hz, View.ld_unit_zero (S := S2048x2048) hz, View.ld_unit_zero (S := S1x2048) hz]
  funext j
  show k0_pay3 (F := Ideal) (iblk m c 0 t) (iblk m c 1 t) (iblk m c 6 t) (iblk m c 7 t) (iblk m c 2 t) (iblk m c 3 t) (iblk m c 5 t) (iblk m c 8 t) j
      = (potentials (R := 4096) (V m c main_arg3) (V m c main_arg1) (currents (R := 4096) (V m c main_arg0) (V m c main_arg1) (V m c main_arg2) (V m c main_arg5) (V m c main_arg6) (V m c main_arg8) (biasRow (V m c main_v1)))) (((cfg0.win 11).blk t).view.emb j)
  rw [emb_rows11, iblk_rows0, iblk_rows1, iblk_rows2, iblk_rows3, iblk_rows5, iblk_whole6, iblk_whole7, iblk_whole8]
  exact potential_rows ..

/-- Point t writes back the t-th block of rows of the spikes. -/
theorem flushed9_eq (c : Dev nD) (t : Fin cfg0.N) :
    (dats m 0 c).flushed 9 t = ((cfg0.win 9).blk t).view.read (Elt Ideal) (spikes (R := 4096) (potentials (R := 4096) (V m c main_arg3) (V m c main_arg1) (currents (R := 4096) (V m c main_arg0) (V m c main_arg1) (V m c main_arg2) (V m c main_arg5) (V m c main_arg6) (V m c main_arg8) (biasRow (V m c main_v1)))) (V m c main_arg4)) := by
  rw [flushed9]
  unfold out0_9
  rw [View.canon_unit_zero hz]
  simp only [View.ld_unit_zero (S := S32x2048) hz, View.ld_unit_zero (S := S2048x2048) hz, View.ld_unit_zero (S := S1x2048) hz]
  funext j
  show k0_pay4 (F := Ideal) (iblk m c 0 t) (iblk m c 1 t) (iblk m c 6 t) (iblk m c 7 t) (iblk m c 2 t) (iblk m c 3 t) (iblk m c 4 t) (iblk m c 5 t) (iblk m c 8 t) j
      = (spikes (R := 4096) (potentials (R := 4096) (V m c main_arg3) (V m c main_arg1) (currents (R := 4096) (V m c main_arg0) (V m c main_arg1) (V m c main_arg2) (V m c main_arg5) (V m c main_arg6) (V m c main_arg8) (biasRow (V m c main_v1)))) (V m c main_arg4)) (((cfg0.win 9).blk t).view.emb j)
  rw [emb_rows9, iblk_rows0, iblk_rows1, iblk_rows2, iblk_rows3, iblk_rows4, iblk_rows5, iblk_whole6, iblk_whole7, iblk_whole8]
  exact spike_rows ..

/-- Point t writes back the t-th block of rows of the thresholds. -/
theorem flushed12_eq (c : Dev nD) (t : Fin cfg0.N) :
    (dats m 0 c).flushed 12 t = ((cfg0.win 12).blk t).view.read (Elt Ideal) (thresholds (R := 4096) (V m c main_arg4) (spikes (R := 4096) (potentials (R := 4096) (V m c main_arg3) (V m c main_arg1) (currents (R := 4096) (V m c main_arg0) (V m c main_arg1) (V m c main_arg2) (V m c main_arg5) (V m c main_arg6) (V m c main_arg8) (biasRow (V m c main_v1)))) (V m c main_arg4))) := by
  rw [flushed12]
  unfold out0_12
  rw [View.canon_unit_zero hz]
  simp only [View.ld_unit_zero (S := S32x2048) hz, View.ld_unit_zero (S := S2048x2048) hz, View.ld_unit_zero (S := S1x2048) hz]
  funext j
  show k0_pay1 (F := Ideal) (k0_pay4 (F := Ideal) (iblk m c 0 t) (iblk m c 1 t) (iblk m c 6 t) (iblk m c 7 t) (iblk m c 2 t) (iblk m c 3 t) (iblk m c 4 t) (iblk m c 5 t) (iblk m c 8 t)) (k0_pay5 (F := Ideal) (iblk m c 0 t) (iblk m c 1 t) (iblk m c 6 t) (iblk m c 7 t) (iblk m c 2 t) (iblk m c 3 t) (iblk m c 4 t) (iblk m c 5 t) (iblk m c 8 t)) (k0_pay6 (F := Ideal) (iblk m c 4 t)) (Scalar.ofBits .f32 0x3F800000#32) j
      = (thresholds (R := 4096) (V m c main_arg4) (spikes (R := 4096) (potentials (R := 4096) (V m c main_arg3) (V m c main_arg1) (currents (R := 4096) (V m c main_arg0) (V m c main_arg1) (V m c main_arg2) (V m c main_arg5) (V m c main_arg6) (V m c main_arg8) (biasRow (V m c main_v1)))) (V m c main_arg4))) (((cfg0.win 12).blk t).view.emb j)
  rw [emb_rows12, iblk_rows0, iblk_rows1, iblk_rows2, iblk_rows3, iblk_rows4, iblk_rows5, iblk_whole6, iblk_whole7, iblk_whole8]
  exact threshold_rows ..

/-! ## The blocks tile the arrays -/

/-- An entry is in point t's block of result 0 iff its row is one of the block's 32 rows. -/
theorem mem_blk9 (t : Fin cfg0.N) (i : S4096x2048.Idx) :
    i ∈ ((cfg0.win 9).blk t).view.set ↔ ∀ a : Fin 2, win0_9.index t a * S32x2048.size a ≤ (i a).val ∧ (i a).val < win0_9.index t a * S32x2048.size a + S32x2048.size a := by
  show i ∈ ((View.whole main_v2_0).slice (win0_9.rect t)).set ↔ _
  rw [View.set_slice_whole, Rect.mem_set_unit]
  exact Iff.rfl

/-- Every entry lies in the block of the point its row's block number names. -/
theorem cover9 (i : S4096x2048.Idx) :
    ∃ t : Fin cfg0.N, (cfg0.win 9).flush t = true ∧ i ∈ ((cfg0.win 9).blk t).view.set := by
  have hi0 : (i 0).val < 4096 := (i 0).isLt
  have hi1 : (i 1).val < 2048 := (i 1).isLt
  have hN : cfg0.N = 128 := N_0
  obtain ⟨t, ht⟩ : ∃ t : Fin cfg0.N, t.val = (i 0).val / 32 := ⟨⟨(i 0).val / 32, by rw [hN]; omega⟩, rfl⟩
  obtain ⟨e0, e1⟩ := index9 t
  refine ⟨t, flush0_9 t, ?_⟩
  rw [mem_blk9]
  intro a
  match a with
  | ⟨0, _⟩ => show win0_9.index t (0 : Fin 2) * 32 ≤ (i 0).val ∧ (i 0).val < win0_9.index t (0 : Fin 2) * 32 + 32; rw [e0, ht]; omega
  | ⟨1, _⟩ => show win0_9.index t (1 : Fin 2) * 2048 ≤ (i 1).val ∧ (i 1).val < win0_9.index t (1 : Fin 2) * 2048 + 2048; rw [e1]; omega

/-- An entry is in point t's block of result 1 iff its row is one of the block's 32 rows. -/
theorem mem_blk10 (t : Fin cfg0.N) (i : S4096x2048.Idx) :
    i ∈ ((cfg0.win 10).blk t).view.set ↔ ∀ a : Fin 2, win0_10.index t a * S32x2048.size a ≤ (i a).val ∧ (i a).val < win0_10.index t a * S32x2048.size a + S32x2048.size a := by
  show i ∈ ((View.whole main_v2_1).slice (win0_10.rect t)).set ↔ _
  rw [View.set_slice_whole, Rect.mem_set_unit]
  exact Iff.rfl

/-- Every entry lies in the block of the point its row's block number names. -/
theorem cover10 (i : S4096x2048.Idx) :
    ∃ t : Fin cfg0.N, (cfg0.win 10).flush t = true ∧ i ∈ ((cfg0.win 10).blk t).view.set := by
  have hi0 : (i 0).val < 4096 := (i 0).isLt
  have hi1 : (i 1).val < 2048 := (i 1).isLt
  have hN : cfg0.N = 128 := N_0
  obtain ⟨t, ht⟩ : ∃ t : Fin cfg0.N, t.val = (i 0).val / 32 := ⟨⟨(i 0).val / 32, by rw [hN]; omega⟩, rfl⟩
  obtain ⟨e0, e1⟩ := index10 t
  refine ⟨t, flush0_10 t, ?_⟩
  rw [mem_blk10]
  intro a
  match a with
  | ⟨0, _⟩ => show win0_10.index t (0 : Fin 2) * 32 ≤ (i 0).val ∧ (i 0).val < win0_10.index t (0 : Fin 2) * 32 + 32; rw [e0, ht]; omega
  | ⟨1, _⟩ => show win0_10.index t (1 : Fin 2) * 2048 ≤ (i 1).val ∧ (i 1).val < win0_10.index t (1 : Fin 2) * 2048 + 2048; rw [e1]; omega

/-- An entry is in point t's block of result 2 iff its row is one of the block's 32 rows. -/
theorem mem_blk11 (t : Fin cfg0.N) (i : S4096x2048.Idx) :
    i ∈ ((cfg0.win 11).blk t).view.set ↔ ∀ a : Fin 2, win0_11.index t a * S32x2048.size a ≤ (i a).val ∧ (i a).val < win0_11.index t a * S32x2048.size a + S32x2048.size a := by
  show i ∈ ((View.whole main_v2_2).slice (win0_11.rect t)).set ↔ _
  rw [View.set_slice_whole, Rect.mem_set_unit]
  exact Iff.rfl

/-- Every entry lies in the block of the point its row's block number names. -/
theorem cover11 (i : S4096x2048.Idx) :
    ∃ t : Fin cfg0.N, (cfg0.win 11).flush t = true ∧ i ∈ ((cfg0.win 11).blk t).view.set := by
  have hi0 : (i 0).val < 4096 := (i 0).isLt
  have hi1 : (i 1).val < 2048 := (i 1).isLt
  have hN : cfg0.N = 128 := N_0
  obtain ⟨t, ht⟩ : ∃ t : Fin cfg0.N, t.val = (i 0).val / 32 := ⟨⟨(i 0).val / 32, by rw [hN]; omega⟩, rfl⟩
  obtain ⟨e0, e1⟩ := index11 t
  refine ⟨t, flush0_11 t, ?_⟩
  rw [mem_blk11]
  intro a
  match a with
  | ⟨0, _⟩ => show win0_11.index t (0 : Fin 2) * 32 ≤ (i 0).val ∧ (i 0).val < win0_11.index t (0 : Fin 2) * 32 + 32; rw [e0, ht]; omega
  | ⟨1, _⟩ => show win0_11.index t (1 : Fin 2) * 2048 ≤ (i 1).val ∧ (i 1).val < win0_11.index t (1 : Fin 2) * 2048 + 2048; rw [e1]; omega

/-- An entry is in point t's block of result 3 iff its row is one of the block's 32 rows. -/
theorem mem_blk12 (t : Fin cfg0.N) (i : S4096x2048.Idx) :
    i ∈ ((cfg0.win 12).blk t).view.set ↔ ∀ a : Fin 2, win0_12.index t a * S32x2048.size a ≤ (i a).val ∧ (i a).val < win0_12.index t a * S32x2048.size a + S32x2048.size a := by
  show i ∈ ((View.whole main_v2_3).slice (win0_12.rect t)).set ↔ _
  rw [View.set_slice_whole, Rect.mem_set_unit]
  exact Iff.rfl

/-- Every entry lies in the block of the point its row's block number names. -/
theorem cover12 (i : S4096x2048.Idx) :
    ∃ t : Fin cfg0.N, (cfg0.win 12).flush t = true ∧ i ∈ ((cfg0.win 12).blk t).view.set := by
  have hi0 : (i 0).val < 4096 := (i 0).isLt
  have hi1 : (i 1).val < 2048 := (i 1).isLt
  have hN : cfg0.N = 128 := N_0
  obtain ⟨t, ht⟩ : ∃ t : Fin cfg0.N, t.val = (i 0).val / 32 := ⟨⟨(i 0).val / 32, by rw [hN]; omega⟩, rfl⟩
  obtain ⟨e0, e1⟩ := index12 t
  refine ⟨t, flush0_12 t, ?_⟩
  rw [mem_blk12]
  intro a
  match a with
  | ⟨0, _⟩ => show win0_12.index t (0 : Fin 2) * 32 ≤ (i 0).val ∧ (i 0).val < win0_12.index t (0 : Fin 2) * 32 + 32; rw [e0, ht]; omega
  | ⟨1, _⟩ => show win0_12.index t (1 : Fin 2) * 2048 ≤ (i 1).val ∧ (i 1).val < win0_12.index t (1 : Fin 2) * 2048 + 2048; rw [e1]; omega

/-! ## The result arrays after the run -/

/-- After the run the array of the spikes holds them, whole. -/
theorem final9 (c : Dev nD) : (dats m 0 c).arrAt 9 cfg0.N = (spikes (R := 4096) (potentials (R := 4096) (V m c main_arg3) (V m c main_arg1) (currents (R := 4096) (V m c main_arg0) (V m c main_arg1) (V m c main_arg2) (V m c main_arg5) (V m c main_arg6) (V m c main_arg8) (biasRow (V m c main_v1)))) (V m c main_arg4)) :=
  (dats m 0 c).arrAt_eq_of_cover 9 (spikes (R := 4096) (potentials (R := 4096) (V m c main_arg3) (V m c main_arg1) (currents (R := 4096) (V m c main_arg0) (V m c main_arg1) (V m c main_arg2) (V m c main_arg5) (V m c main_arg6) (V m c main_arg8) (biasRow (V m c main_v1)))) (V m c main_arg4)) (fun t _ => flushed9_eq m c t) cover9
/-- After the run the array of the currents holds them, whole. -/
theorem final10 (c : Dev nD) : (dats m 0 c).arrAt 10 cfg0.N = (currents (R := 4096) (V m c main_arg0) (V m c main_arg1) (V m c main_arg2) (V m c main_arg5) (V m c main_arg6) (V m c main_arg8) (biasRow (V m c main_v1))) :=
  (dats m 0 c).arrAt_eq_of_cover 10 (currents (R := 4096) (V m c main_arg0) (V m c main_arg1) (V m c main_arg2) (V m c main_arg5) (V m c main_arg6) (V m c main_arg8) (biasRow (V m c main_v1))) (fun t _ => flushed10_eq m c t) cover10
/-- After the run the array of the potentials holds them, whole. -/
theorem final11 (c : Dev nD) : (dats m 0 c).arrAt 11 cfg0.N = (potentials (R := 4096) (V m c main_arg3) (V m c main_arg1) (currents (R := 4096) (V m c main_arg0) (V m c main_arg1) (V m c main_arg2) (V m c main_arg5) (V m c main_arg6) (V m c main_arg8) (biasRow (V m c main_v1)))) :=
  (dats m 0 c).arrAt_eq_of_cover 11 (potentials (R := 4096) (V m c main_arg3) (V m c main_arg1) (currents (R := 4096) (V m c main_arg0) (V m c main_arg1) (V m c main_arg2) (V m c main_arg5) (V m c main_arg6) (V m c main_arg8) (biasRow (V m c main_v1)))) (fun t _ => flushed11_eq m c t) cover11
/-- After the run the array of the thresholds holds them, whole. -/
theorem final12 (c : Dev nD) : (dats m 0 c).arrAt 12 cfg0.N = (thresholds (R := 4096) (V m c main_arg4) (spikes (R := 4096) (potentials (R := 4096) (V m c main_arg3) (V m c main_arg1) (currents (R := 4096) (V m c main_arg0) (V m c main_arg1) (V m c main_arg2) (V m c main_arg5) (V m c main_arg6) (V m c main_arg8) (biasRow (V m c main_v1)))) (V m c main_arg4))) :=
  (dats m 0 c).arrAt_eq_of_cover 12 (thresholds (R := 4096) (V m c main_arg4) (spikes (R := 4096) (potentials (R := 4096) (V m c main_arg3) (V m c main_arg1) (currents (R := 4096) (V m c main_arg0) (V m c main_arg1) (V m c main_arg2) (V m c main_arg5) (V m c main_arg6) (V m c main_arg8) (biasRow (V m c main_v1)))) (V m c main_arg4))) (fun t _ => flushed12_eq m c t) cover12

end Cert.KernelIdeal.Blocks

end
-- ==== Proof.KernelRun.lean ====
/-
  The kernel's run, read: each result array as the layer's step of the arrays the program was launched with.

  No host operation before the region writes an argument array, so the region finds the arguments as launched; the
  one buffer it computes is the bias row, the two bias vectors added and reshaped from [2048] to [1, 2048], whose
  entry (0, c) is the sum of the two biases of neuron c.
-/
import proofs.«109018_j50053548868255_2_alg».proof.Proof.KernelBlocks

noncomputable section

namespace Cert.KernelIdeal.Blocks

open Cert.KernelIdeal Cert.KernelIdeal.Gen Cert.KernelIdeal.Value Cert.KernelIdeal.Point Idealize.ShloMosaic
  Idealize.ShloMosaic.TcCoe Idealize.SL.Sem Idealize.ShloMosaic.ValueIdx Cert.Neuron Idealize.ShloMosaic.StableHlo
open Idealize.ShloMosaic.Pipeline (Dat)

variable (m : (ℓ : Loc nD τ sig) → Buf (Elt Ideal) ℓ) (ρ : Dev nD → PrngReg)

/-- The bias row the region finds holds, for each neuron, the sum of its two biases. -/
theorem bias_found (c : Dev nD) :
    biasRow (V m c main_v1) = biasSum (m ((c : Thread nD τ).loc main_arg7)) (m ((c : Thread nD τ).loc main_arg9)) := by
  funext q
  show (V m c main_v1 : S1x2048.Idx → EReal) _ = _
  dsimp only [V, hostOps0]
  after_results
  refine (shapeCast_apply (addf (F := Ideal) (m (c, Proc.tc.devRef main_arg7)) (m (c, Proc.tc.devRef main_arg9))) _ _ q ?_).trans rfl
  show ((⟨1, ![2048]⟩ : Shape).rowMajor q).val
      = ((⟨2, ![1, 2048]⟩ : Shape).rowMajor (ix2 (n0 := 1) (n1 := 2048) 0 ⟨(q 0).val, (q 0).isLt⟩)).val
  rw [Shape.rowMajor_val_one, Shape.rowMajor_val_two]
  show (q 0).val = 0 * 2048 + (q 0).val
  omega

/-- The spikes of the launched arrays. -/
abbrev spikesOut (c : Dev nD) : Buf (Elt Ideal) ((c : Thread nD τ).loc main_v2_0) := (spikes (R := 4096) (potentials (R := 4096) (m ((c : Thread nD τ).loc main_arg3)) (m ((c : Thread nD τ).loc main_arg1)) (currents (R := 4096) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) (biasSum (m ((c : Thread nD τ).loc main_arg7)) (m ((c : Thread nD τ).loc main_arg9))))) (m ((c : Thread nD τ).loc main_arg4)))
/-- The currents of the launched arrays. -/
abbrev currentsOut (c : Dev nD) : Buf (Elt Ideal) ((c : Thread nD τ).loc main_v2_1) := (currents (R := 4096) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) (biasSum (m ((c : Thread nD τ).loc main_arg7)) (m ((c : Thread nD τ).loc main_arg9))))
/-- The potentials of the launched arrays. -/
abbrev potentialsOut (c : Dev nD) : Buf (Elt Ideal) ((c : Thread nD τ).loc main_v2_2) := (potentials (R := 4096) (m ((c : Thread nD τ).loc main_arg3)) (m ((c : Thread nD τ).loc main_arg1)) (currents (R := 4096) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) (biasSum (m ((c : Thread nD τ).loc main_arg7)) (m ((c : Thread nD τ).loc main_arg9)))))
/-- The thresholds of the launched arrays. -/
abbrev thresholdsOut (c : Dev nD) : Buf (Elt Ideal) ((c : Thread nD τ).loc main_v2_3) := (thresholds (R := 4096) (m ((c : Thread nD τ).loc main_arg4)) (spikes (R := 4096) (potentials (R := 4096) (m ((c : Thread nD τ).loc main_arg3)) (m ((c : Thread nD τ).loc main_arg1)) (currents (R := 4096) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) (biasSum (m ((c : Thread nD τ).loc main_arg7)) (m ((c : Thread nD τ).loc main_arg9))))) (m ((c : Thread nD τ).loc main_arg4))))

theorem spikes_launched (c : Dev nD) : (dats m 0 c).arrAt 9 cfg0.N = spikesOut m c := by
  rw [final9]; rw [V_main_arg0, V_main_arg1, V_main_arg2, V_main_arg3, V_main_arg4, V_main_arg5, V_main_arg6, V_main_arg8, bias_found]
theorem currents_launched (c : Dev nD) : (dats m 0 c).arrAt 10 cfg0.N = currentsOut m c := by
  rw [final10]; rw [V_main_arg0, V_main_arg1, V_main_arg2, V_main_arg5, V_main_arg6, V_main_arg8, bias_found]
theorem potentials_launched (c : Dev nD) : (dats m 0 c).arrAt 11 cfg0.N = potentialsOut m c := by
  rw [final11]; rw [V_main_arg0, V_main_arg1, V_main_arg2, V_main_arg3, V_main_arg5, V_main_arg6, V_main_arg8, bias_found]
theorem thresholds_launched (c : Dev nD) : (dats m 0 c).arrAt 12 cfg0.N = thresholdsOut m c := by
  rw [final12]; rw [V_main_arg0, V_main_arg1, V_main_arg2, V_main_arg3, V_main_arg4, V_main_arg5, V_main_arg6, V_main_arg8, bias_found]

/-- Every execution of the kernel's program ends with the four result arrays at the layer's step of the launched
    arrays (the spikes are returned twice), the arguments unchanged. -/
theorem run : θ_run defs (onTc (τ := τ) (main (F := Ideal))) ⟨m, fun _ => 0, ρ⟩ fun r => ∀ c : Dev nD,
      r.2.mem ((c : Thread nD τ).loc main_v2_0) = spikesOut m c
      ∧ r.2.mem ((c : Thread nD τ).loc main_v2_0) = spikesOut m c
      ∧ r.2.mem ((c : Thread nD τ).loc main_v2_1) = currentsOut m c
      ∧ r.2.mem ((c : Thread nD τ).loc main_v2_2) = potentialsOut m c
      ∧ r.2.mem ((c : Thread nD τ).loc main_v2_3) = thresholdsOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (spikes_launched m c), (h c).1.trans (spikes_launched m c),
      (h c).2.1.trans (currents_launched m c), (h c).2.2.1.trans (potentials_launched m c),
      (h c).2.2.2.1.trans (thresholds_launched m c), (h c).2.2.2.2⟩)
    (Cert.KernelIdeal.Value.run_blocks m ρ)

end Cert.KernelIdeal.Blocks

end
-- ==== Proof.RefValue.lean ====
/-
  What the reference computes, stage by stage, is the layer's step on whole arrays.

  Each of its four results is read entry by entry through its operations: a constant spread over the array reads
  the constant, a bias vector made a row and spread over the rows reads the entry's neuron, a product of the batch
  with a weight matrix is the sum over the contracted axis, and the remaining operations act entry by entry.  The
  reference adds the two biases one at a time, with the second projection between them; regrouping that sum gives
  the current with the two biases summed first.
-/
import proofs.«109018_j50053548868255_2_alg».proof.Proof.Gen.ReferenceIdeal.Read
import proofs.«109018_j50053548868255_2_alg».proof.Proof.Neuron

noncomputable section

namespace Cert.ReferenceIdeal.RefValue

open Cert.ReferenceIdeal Cert.ReferenceIdeal.Read Idealize.ShloMosaic Idealize.ShloMosaic.ValueIdx Cert.Neuron
  Cert.Lib.PlainDot
open scoped BigOperators

/-- The input's projection, read at an entry, is the product's sum over the contracted axis. -/
theorem dot2_eq (x : (⟨S4096x2048, .f32⟩ : BufTy).Contents (Elt Ideal)) (w : (⟨S2048x2048, .f32⟩ : BufTy).Contents (Elt Ideal)) (i : S4096x2048.Idx) :
    (∑ k : Fin 2048, x (lidx_main_v2 i k) * w (ridx_main_v2 i k)) = mm (R := 4096) (K := 2048) (C := 2048) x w i := by
  unfold mm
  refine Finset.sum_congr rfl fun k _ => ?_
  have el : lidx_main_v2 i k = rowIdx i k := funext fun a => by match a with | ⟨0, _⟩ => rfl | ⟨1, _⟩ => rfl
  have er : ridx_main_v2 i k = colIdx i k := funext fun a => by match a with | ⟨0, _⟩ => rfl | ⟨1, _⟩ => rfl
  rw [el, er]

/-- The previous spikes' projection, likewise. -/
theorem dot7_eq (x : (⟨S4096x2048, .f32⟩ : BufTy).Contents (Elt Ideal)) (w : (⟨S2048x2048, .f32⟩ : BufTy).Contents (Elt Ideal)) (i : S4096x2048.Idx) :
    (∑ k : Fin 2048, x (lidx_main_v7 i k) * w (ridx_main_v7 i k)) = mm (R := 4096) (K := 2048) (C := 2048) x w i := by
  unfold mm
  refine Finset.sum_congr rfl fun k _ => ?_
  have el : lidx_main_v7 i k = rowIdx i k := funext fun a => by match a with | ⟨0, _⟩ => rfl | ⟨1, _⟩ => rfl
  have er : ridx_main_v7 i k = colIdx i k := funext fun a => by match a with | ⟨0, _⟩ => rfl | ⟨1, _⟩ => rfl
  rw [el, er]

variable (x0 x1 x2 x3 x4 x5 : (⟨S4096x2048, .f32⟩ : BufTy).Contents (Elt Ideal)) (x6 x8 : (⟨S2048x2048, .f32⟩ : BufTy).Contents (Elt Ideal)) (x7 x9 : (⟨S2048, .f32⟩ : BufTy).Contents (Elt Ideal))

/-- The reference's current. -/
theorem current_eq :
    val_main_v12 (F := Ideal) x0 x1 x2 x5 x6 x7 x8 x9 = currents (R := 4096) x0 x1 x2 x5 x6 x8 (biasSum x7 x9) := by
  funext i
  rw [val_main_v12_apply, val_main_v11_apply, val_main_v10_apply, val_main_v9_apply, val_main_v8_apply,
    val_main_v7_apply, val_main_v6_apply, val_main_v5_apply, val_main_v4_apply, val_main_v3_apply, val_main_v2_apply,
    val_main_v1_apply, val_main_v0_apply, val_main_cst_apply]
  have n7 : idx_main_v4 (idx_main_v5 i) = neuronOf i := funext fun a => by match a with | ⟨0, _⟩ => rfl
  have n9 : idx_main_v9 (idx_main_v10 i) = neuronOf i := funext fun a => by match a with | ⟨0, _⟩ => rfl
  rw [n7, n9]
  show (cdecay * x2 i + (∑ k : Fin 2048, x0 (lidx_main_v2 i k) * x6 (ridx_main_v2 i k)) + x7 (neuronOf i)
      + (∑ k : Fin 2048, x1 (lidx_main_v7 i k) * x8 (ridx_main_v7 i k)) + x9 (neuronOf i)) * x5 i = _
  rw [regroup, dot2_eq, dot7_eq]
  rfl

/-- The reference's potential. -/
theorem potential_eq :
    val_main_v18 (F := Ideal) x0 x1 x2 x3 x5 x6 x7 x8 x9
      = potentials (R := 4096) x3 x1 (currents (R := 4096) x0 x1 x2 x5 x6 x8 (biasSum x7 x9)) := by
  funext i
  rw [val_main_v18_apply, val_main_v17_apply, val_main_v16_apply, val_main_v15_apply, val_main_cst_1_apply,
    val_main_v14_apply, val_main_v13_apply, val_main_cst_0_apply, current_eq]
  rfl

/-- The reference's spike. -/
theorem spike_eq :
    val_main_v20 (F := Ideal) x0 x1 x2 x3 x4 x5 x6 x7 x8 x9
      = spikes (R := 4096) (potentials (R := 4096) x3 x1 (currents (R := 4096) x0 x1 x2 x5 x6 x8 (biasSum x7 x9))) x4 := by
  funext i
  rw [val_main_v20_apply, val_main_v19_apply, potential_eq]
  rfl

/-- The reference's threshold. -/
theorem threshold_eq :
    val_main_v31 (F := Ideal) x0 x1 x2 x3 x4 x5 x6 x7 x8 x9
      = thresholds (R := 4096) x4
          (spikes (R := 4096) (potentials (R := 4096) x3 x1 (currents (R := 4096) x0 x1 x2 x5 x6 x8 (biasSum x7 x9))) x4) := by
  funext i
  rw [val_main_v31_apply, val_main_v30_apply, val_main_v29_apply, val_main_v28_apply, val_main_cst_5_apply,
    val_main_v27_apply, val_main_v26_apply, val_main_cst_4_apply, val_main_v25_apply, val_main_v24_apply,
    val_main_cst_3_apply, val_main_v23_apply, val_main_v22_apply, val_main_v21_apply, val_main_cst_2_apply, spike_eq]
  rfl

end Cert.ReferenceIdeal.RefValue

end
-- ==== Proof.lean ====
/-
  The kernel computes one step of a recurrent layer of leaky integrate-and-fire neurons with an adaptive threshold —
  new current, new potential, spike, new threshold — on blocks of 32 batch rows, with the two bias vectors summed
  once beforehand; the reference computes the same step on whole arrays, adding the two biases one at a time.

  Read on the extended reals both programs are, entry by entry, the same four functions of the ten argument arrays
  (Proof/Neuron.lean): the kernel's matrix products into a zero accumulator and the reference's dot products are
  the same sums, every constant is the same float word on both sides, and the only rearrangement is the grouping of
  the sum inside the current, which holds for every extended real.  So the precondition is not used: the results
  agree on all inputs, finite or not.

  The kernel's side: what the body stores, entry by entry (Proof/KernelPoint.lean), on a block of rows
  (Proof/KernelRows.lean), assembled over the 128 grid points into whole arrays (Proof/KernelBlocks.lean) of the
  launched arguments (Proof/KernelRun.lean).  The reference's side: its four results stage by stage
  (Proof/RefValue.lean).  The ideal pass rewrote nothing, so the idealized kernel is the kernel's own text.
-/
import proofs.«109018_j50053548868255_2_alg».proof.Defs
import proofs.«109018_j50053548868255_2_alg».proof.Proof.Gen.Kernel
import proofs.«109018_j50053548868255_2_alg».proof.Proof.Gen.Kernel.Skeleton
import proofs.«109018_j50053548868255_2_alg».proof.Proof.Gen.Kernel.Launch
import proofs.«109018_j50053548868255_2_alg».proof.Proof.Gen.Kernel.Points
import proofs.«109018_j50053548868255_2_alg».proof.Proof.Gen.Kernel.Frame
import proofs.«109018_j50053548868255_2_alg».proof.Proof.Gen.KernelIdeal
import proofs.«109018_j50053548868255_2_alg».proof.Proof.Gen.KernelIdeal.Skeleton
import proofs.«109018_j50053548868255_2_alg».proof.Proof.Gen.KernelIdeal.Launch
import proofs.«109018_j50053548868255_2_alg».proof.Proof.Gen.KernelIdeal.Points
import proofs.«109018_j50053548868255_2_alg».proof.Proof.Gen.KernelIdeal.Frame
import proofs.«109018_j50053548868255_2_alg».proof.Proof.Gen.ReferenceIdeal
import proofs.«109018_j50053548868255_2_alg».proof.Proof.Gen.Pre_finite_inputs
import proofs.«109018_j50053548868255_2_alg».proof.Proof.Gen.KernelIdeal.Value
import proofs.«109018_j50053548868255_2_alg».proof.Proof.Gen.ReferenceIdeal.Run
import proofs.«109018_j50053548868255_2_alg».proof.Proof.Gen.ReferenceIdeal.Read
import proofs.«109018_j50053548868255_2_alg».proof.Proof.KernelRun
import proofs.«109018_j50053548868255_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- So does the reference: its run with the five results dropped. -/
theorem frame_reference : Cert.frame_ReferenceIdeal := fun m ρ _ =>
  (θ_run Cert.ReferenceIdeal.defs _ _).mono (fun _ h c => (h c).2.2.2.2.2) (Cert.ReferenceIdeal.Value.run (F := Ideal) m ρ)

/-- From memories that agree on the ten arguments both programs end with the same five results: the spikes
    (returned twice), the currents, the potentials and the thresholds of the layer's step. -/
theorem algebraic : Cert.algebraic_KernelIdeal_ReferenceIdeal := by
  intro m ρ m' ρ' _ hagree
  refine ⟨fun c => Cert.KernelIdeal.Blocks.spikesOut m c, fun c => Cert.KernelIdeal.Blocks.spikesOut m c, fun c => Cert.KernelIdeal.Blocks.currentsOut m c,
    fun c => Cert.KernelIdeal.Blocks.potentialsOut m c, fun c => Cert.KernelIdeal.Blocks.thresholdsOut m c, Cert.KernelIdeal.Blocks.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9⟩ := hagree c
  obtain ⟨h0, h1, h2, h3, h4, hargs⟩ := h c
  refine ⟨?_, ?_, ?_, ?_, ?_, hargs⟩
  · rw [h0, Cert.ReferenceIdeal.Read.val_main_v20_eq, Cert.ReferenceIdeal.RefValue.spike_eq, a0, a1, a2, a3, a4, a5, a6, a7, a8, a9]
  · rw [h1, Cert.ReferenceIdeal.Read.val_main_v20_eq, Cert.ReferenceIdeal.RefValue.spike_eq, a0, a1, a2, a3, a4, a5, a6, a7, a8, a9]
  · rw [h2, Cert.ReferenceIdeal.Read.val_main_v12_eq, Cert.ReferenceIdeal.RefValue.current_eq, a0, a1, a2, a5, a6, a7, a8, a9]
  · rw [h3, Cert.ReferenceIdeal.Read.val_main_v18_eq, Cert.ReferenceIdeal.RefValue.potential_eq, a0, a1, a2, a3, a5, a6, a7, a8, a9]
  · rw [h4, Cert.ReferenceIdeal.Read.val_main_v31_eq, Cert.ReferenceIdeal.RefValue.threshold_eq, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
